-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1048576 : Shape := ⟨2, ![64, 1048576]⟩
abbrev S_ : Shape := ⟨0, ![]⟩

class Facts : Prop where
  bcast_S_S64x1048576 : S_.BroadcastsInDim S64x1048576 (![] : Fin 0 → Fin S64x1048576.rank)
  reducesTo_S64x1048576_S_d0_1 : S64x1048576.ReducesTo [0, 1] S_
  h_S_ : 0 < S_.numel

variable [Facts]

def fn {F : FTy → Type} [FloatOps F] (main_arg0 : FVec F S64x1048576 .f32) (main_arg1 : FVec F S64x1048576 .f32) : IVec S_ 1 :=
  let main_v0 : FVec F S64x1048576 .f32 := Host.absf main_arg0
  let main_cst : FVec F S_ .f32 := constant S_ .f32 0x7F800000#32
  let main_v1 : FVec F S64x1048576 .f32 := broadcastInDim S64x1048576 ![] bcast_S_S64x1048576 main_cst
  let main_v2 : IVec S64x1048576 1 := cmpf .olt main_v0 main_v1
  let main_c : IVec S_ 1 := constantI S_ 1 1#1
  let main_v3 : IVec S_ 1 := (fun x v => Host.reduce IntOp.andi x v reducesTo_S64x1048576_S_d0_1 h_S_) main_v2 main_c
  let main_v4 : FVec F S64x1048576 .f32 := Host.absf main_arg1
  let main_cst_0 : FVec F S_ .f32 := constant S_ .f32 0x7F800000#32
  let main_v5 : FVec F S64x1048576 .f32 := broadcastInDim S64x1048576 ![] bcast_S_S64x1048576 main_cst_0
  let main_v6 : IVec S64x1048576 1 := cmpf .olt main_v4 main_v5
  let main_c_1 : IVec S_ 1 := constantI S_ 1 1#1
  let main_v7 : IVec S_ 1 := (fun x v => Host.reduce IntOp.andi x v reducesTo_S64x1048576_S_d0_1 h_S_) main_v6 main_c_1
  let main_v8 : IVec S_ 1 := andi main_v3 main_v7
  main_v8
-- ==== Kernel.lean ====
abbrev S64x1048576 : Shape := ⟨2, ![64, 1048576]⟩
abbrev S8192x8192 : Shape := ⟨2, ![8192, 8192]⟩
abbrev S128x8192 : Shape := ⟨2, ![128, 8192]⟩

abbrev nBuf : Space → Nat
  | .hbm => 6
  | .vmem => 6
  | .smem => 0
  | _ => 0

abbrev bufTy : (tb : Table) → Fin (tcTables nBuf tb) → BufTy
  | .hbm, ⟨0, _⟩ => ⟨S64x1048576, .f32⟩
  | .hbm, ⟨1, _⟩ => ⟨S64x1048576, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S64x1048576, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S64x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x1048576_S8192x8192 : S64x1048576.ShapeCasts S8192x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  shapeCasts_S8192x8192_S64x1048576 : S8192x8192.ShapeCasts S64x1048576
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)

variable [Facts₀]

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1048576 : Shape := ⟨2, ![64, 1048576]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S64x1048576, .f32⟩
  | .hbm, ⟨1, _⟩ => ⟨S64x1048576, .f32⟩
  | .hbm, ⟨2, _⟩ => ⟨S_, .f32⟩
  | .hbm, ⟨3, _⟩ => ⟨S64x1048576, .f32⟩
  | .hbm, ⟨4, _⟩ => ⟨S64x1048576, .i1⟩
  | .hbm, ⟨5, _⟩ => ⟨S_, .f32⟩
  | .hbm, ⟨6, _⟩ => ⟨S_, .f32⟩
  | .hbm, ⟨7, _⟩ => ⟨S64x1048576, .f32⟩
  | .hbm, ⟨8, _⟩ => ⟨S64x1048576, .f32⟩
  | .hbm, ⟨9, _⟩ => ⟨S_, .f32⟩
  | .hbm, ⟨10, _⟩ => ⟨S64x1048576, .f32⟩
  | .hbm, ⟨11, _⟩ => ⟨S64x1048576, .f32⟩
  | .hbm, ⟨12, _⟩ => ⟨S_, .f32⟩
  | .hbm, ⟨13, _⟩ => ⟨S_, .f32⟩
  | .hbm, ⟨14, _⟩ => ⟨S64x1048576, .f32⟩
  | .hbm, ⟨15, _⟩ => ⟨S64x1048576, .f32⟩
  | .hbm, ⟨16, _⟩ => ⟨S64x1048576, .f32⟩
  | _, _ => ⟨S64x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]

class Facts₀ : Prop where
  bcast_S_S64x1048576 : S_.BroadcastsInDim S64x1048576 (![] : Fin 0 → Fin S64x1048576.rank)

variable [Facts₀]

class Facts : Prop extends Facts₀ where

variable [Facts]
-- ==== Proof.GuardedQuotient.lean ====
/-
  The guarded quotient on the extended reals: `x / y` where `y ≠ 0`, and `0` where `y = 0`.

  Two programs spell it differently. One selects between the quotient `x / y` and `0` on the test `y ≠ 0`. The other
  multiplies `x` by a guarded reciprocal: `1 / y'` where `y ≠ 0` and `0` elsewhere, with `y'` equal to `y` off its zeros
  and to `1` on them, so that no reciprocal of zero is ever taken. Off the zeros of `y` the quotient is `x · y⁻¹` and the
  guarded reciprocal is `1 · y⁻¹`, and `x · (1 · y⁻¹) = x · y⁻¹` in any monoid; on the zeros the first is `0` and the
  second is `x · 0 = 0`, which holds on the extended reals for every `x`, the infinities included. No finiteness of
  `x` or `y` is used anywhere.

  The quotient acts element by element, so it commutes with any re-indexing of the arrays: reshaping both operands,
  taking the guarded quotient and reshaping back is the guarded quotient of the operands themselves.
-/
import Idealize.ShloMosaic.PureOps.Ideal
import Idealize.ShloMosaic.PureOps.Ideal.Laws
import Idealize.ShloMosaic.Lib.Pipeline.Value
import Idealize.ShloMosaic.Lib.ValueIdx

noncomputable section

namespace Cert.GuardedQuotient

open Idealize.ShloMosaic

/-- `x / y` off the zeros of `y`, and `0` on them. -/
def gq (x y : EReal) : EReal := if y ≠ 0 then Ideal.div x y else 0

/-- The same, element by element, over two arrays of one shape. -/
def GQ {s : Shape} (a b : FVec Ideal s .f32) : FVec Ideal s .f32 := fun i => gq (a i) (b i)

theorem GQ_apply {s : Shape} (a b : FVec Ideal s .f32) (i : s.Idx) : GQ a b i = gq (a i) (b i) := rfl

/-- The single-precision pattern of `1.0` denotes the extended real `1`. -/
theorem one_f32 : Ideal.ofBits .f32 0x3F800000#32 = 1 := by
  simp [Ideal.ofBits, Ideal.ieee, -EReal.coe_mul]; norm_num

/-- The comparison `y ≠ 0` as a one-bit word is set exactly off the zeros of `y`; the ordered and the unordered
    "not equal" are one predicate on a linear order. -/
theorem cmp_one_zero (y : EReal) : (Ideal.cmp .one y 0 = (1 : BitVec 1)) ↔ y ≠ 0 := by
  unfold Ideal.cmp
  by_cases h : y = 0 <;> simp [h]

theorem cmp_une_zero (y : EReal) : (Ideal.cmp .une y 0 = (1 : BitVec 1)) ↔ y ≠ 0 := by
  unfold Ideal.cmp
  by_cases h : y = 0 <;> simp [h]

/-- Selecting the quotient where `y ≠ 0` and `0` elsewhere is the guarded quotient. -/
theorem select_quotient (x y : EReal) :
    Scalar.select (FloatOps.cmpf (F := Ideal) (φ := .f32) .one y (Scalar.ofBits (F := Ideal) .f32 0x00000000#32))
        (FloatOps.divf (F := Ideal) (φ := .f32) x y) (Scalar.ofBits (F := Ideal) .f32 0x00000000#32)
      = gq x y := by
  have hz : Scalar.ofBits (F := Ideal) .f32 0x00000000#32 = (0 : EReal) := Ideal.ofBits_zero_f32
  rw [hz, Ideal.cmpf_def, Ideal.divf_def]
  unfold Scalar.select gq
  exact if_congr (cmp_one_zero y) rfl rfl

/-- The product of `x` with the guarded reciprocal of `y` is the guarded quotient: off the zeros `x · (1 · y⁻¹)`, on them
    `x · 0`. -/
theorem mul_guarded_reciprocal (x y : EReal) :
    FloatOps.mulf (F := Ideal) (φ := .f32) x
        (Scalar.select (FloatOps.cmpf (F := Ideal) (φ := .f32) .une y (FloatOps.ofBits (F := Ideal) .f32 0x00000000#32))
          (FloatOps.hostDivf (F := Ideal) (φ := .f32) (FloatOps.ofBits (F := Ideal) .f32 0x3F800000#32)
            (Scalar.select (FloatOps.cmpf (F := Ideal) (φ := .f32) .une y (FloatOps.ofBits (F := Ideal) .f32 0x00000000#32)) y
              (FloatOps.ofBits (F := Ideal) .f32 0x3F800000#32)))
          (FloatOps.ofBits (F := Ideal) .f32 0x00000000#32))
      = gq x y := by
  rw [Ideal.ofBits_def, Ideal.ofBits_def, Ideal.ofBits_zero_f32, one_f32, Ideal.cmpf_def, Ideal.hostDivf_def, Ideal.mulf_def]
  unfold Scalar.select gq
  by_cases h : y = 0
  · have h' : ¬ (Ideal.cmp .une y 0 = (1 : BitVec 1)) := fun e => (cmp_une_zero y).mp e h
    have h'' : ¬ (y ≠ 0) := not_not.mpr h
    simp only [if_neg h', if_neg h'', mul_zero]
  · have h' : Ideal.cmp .une y 0 = (1 : BitVec 1) := (cmp_une_zero y).mpr h
    simp only [if_pos h', if_pos (show y ≠ 0 from h), Ideal.div, if_neg h, one_mul]

/-- Reshape both operands, take the guarded quotient, reshape back: the guarded quotient of the operands. An element
    of the result depends on the operands at that element's own position only, and a reshape there and back returns
    every position to itself. -/
theorem GQ_reshape {s t : Shape} (x y : FVec Ideal s .f32) (h : s.ShapeCasts t) (h' : t.ShapeCasts s) :
    shapeCast s (GQ (shapeCast t x h) (shapeCast t y h)) h' = GQ x y := by
  funext i
  show gq (shapeCast s (shapeCast t x h) h' i) (shapeCast s (shapeCast t y h) h' i) = gq (x i) (y i)
  rw [shapeCast_shapeCast, shapeCast_shapeCast]

end Cert.GuardedQuotient

end
-- ==== Proof.KernelArray.lean ====
/-
  What the idealized kernel leaves in its 8192 × 8192 output array.

  The two 64 × 1048576 arguments are first re-indexed, in row-major order, as 8192 × 8192 arrays `X` and `Y`. The grid
  has 64 points; point `t` loads rows `128 t … 128 t + 127` (all 8192 columns) of `X` and of `Y`, and stores, over the same
  rows of the output, the guarded quotient of the two loaded blocks element by element. An output element therefore
  depends on `X` and `Y` at its own position only, so the block written at point `t` is the restriction to those rows of
  ONE whole-array function, the guarded quotient of `X` and `Y`. The 64 row bands tile the 8192 rows (row `r` lies in band
  `r / 128`), so after the last point the output array is that function everywhere.
-/
import proofs.«178864_j16561393894029_2_alg».proof.Proof.Gen.KernelIdeal.Frame
import proofs.«178864_j16561393894029_2_alg».proof.Proof.GuardedQuotient
import Idealize.ShloMosaic.Lib.Pipeline.Value
import Idealize.ShloMosaic.Lib.StableHlo.Run

noncomputable section

namespace Cert.KernelIdeal.Quotient

open Cert.KernelIdeal Cert.KernelIdeal.Gen Idealize.ShloMosaic Idealize.ShloMosaic.TcCoe Idealize.SL.Sem
open Idealize.ShloMosaic.Pipeline (Dat)
open Cert.GuardedQuotient

variable (m : (ℓ : Loc nD τ sig) → Buf (Elt Ideal) ℓ) (ρ : Dev nD → PrngReg)

/-! ## The body's stored value -/

/-- The one value the body stores is the guarded quotient of its two loaded blocks: the casts to the blocks' own shape
    are the identity, the splat of `0.0` is `0` everywhere, and what is left at an element is the selection of the quotient
    on the test `y ≠ 0`. -/
theorem payload_eq (x0 x1 : Vec Ideal S128x8192 .f32) : k0_pay1 (F := Ideal) x0 x1 = GQ x0 x1 := by
  funext j
  unfold k0_pay1
  simp only [shapeCast_self]
  exact select_quotient (x0 j) (x1 j)

/-! ## The arrays the region finds -/

/-- The first operand's array, as the region finds it, is the first argument re-indexed in row-major order. -/
theorem entry_X (c : Dev nD) :
    (V m c main_v0 : S8192x8192.Idx → EReal)
      = shapeCast S8192x8192 (m ((c : Thread nD τ).loc main_arg0)) shapeCasts_S64x1048576_S8192x8192 := by
  show StableHlo.after hostOps0 (fun b => m (c, b)) (Proc.devRef .tc main_v0) = _
  after_results
  rfl

/-- The second operand's array likewise, of the second argument. -/
theorem entry_Y (c : Dev nD) :
    (V m c main_v1 : S8192x8192.Idx → EReal)
      = shapeCast S8192x8192 (m ((c : Thread nD τ).loc main_arg1)) shapeCasts_S64x1048576_S8192x8192 := by
  show StableHlo.after hostOps0 (fun b => m (c, b)) (Proc.devRef .tc main_v1) = _
  after_results
  rfl

/-! ## One point's block -/

theorem offsets_zero : (![0, 0] : Fin 2 → Nat) = fun _ => 0 := funext fun a => by fin_cases a <;> rfl

/-- The three windows move together: at point `t` each is at block row `t` and block column `0`. -/
theorem block_indices : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every row band is some point's. -/
theorem band_onto : ∀ q : Fin 64, ∃ t : Fin cfg0.N, win0_2.index t = ![q.val, 0] :=
  (by decide +kernel : ∀ q : Fin 64, ∃ t : Fin grid0.N, win0_2.index t = ![q.val, 0])

/-- What point `t` writes back is its row band of the guarded quotient of the two operand arrays as the region finds
    them: the inputs' blocks are read at the very positions the output's block covers. -/
theorem flushed_eq (c : Dev nD) (t : Fin cfg0.N) :
    (dats m 0 c).flushed 2 t = ((cfg0.win 2).blk t).view.read (Elt Ideal) (GQ (V m c main_v0) (V m c main_v1)) := by
  show (cfg0.win 2).cut (grid0.coords t) ((dats m 0 c).after 2 t) = _
  rw [after0_2]
  unfold out0_2
  rw [View.canon_unit_zero offsets_zero]
  simp only [View.ld_unit_zero (S := S128x8192) offsets_zero]
  rw [payload_eq]
  obtain ⟨e0, e1, e2, e3⟩ := block_indices t
  funext j
  show gq (V m c main_v0 (((cfg0.win 0).blk t).view.emb j)) (V m c main_v1 (((cfg0.win 1).blk t).view.emb j))
    = gq (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 8192 + 1 * (j 1).val = win0_2.index t (1 : Fin 2) * 8192 + 1 * (j 1).val; omega
  have h1 : ((cfg0.win 1).blk t).view.emb j = ((cfg0.win 2).blk t).view.emb j := by
    funext a; apply Fin.ext
    match a with
    | ⟨0, _⟩ => show win0_1.index t (0 : Fin 2) * 128 + 1 * (j 0).val = win0_2.index t (0 : Fin 2) * 128 + 1 * (j 0).val; omega
    | ⟨1, _⟩ => show win0_1.index t (1 : Fin 2) * 8192 + 1 * (j 1).val = win0_2.index t (1 : Fin 2) * 8192 + 1 * (j 1).val; omega
  rw [h0, h1]

/-! ## The bands tile the array -/

/-- A position is in point `t`'s block exactly when each coordinate is in the block's range on its axis. -/
theorem mem_band (t : Fin cfg0.N) (i : S8192x8192.Idx) :
    i ∈ ((cfg0.win 2).blk t).view.set ↔ ∀ a : Fin 2, win0_2.index t a * S128x8192.size a ≤ (i a).val
      ∧ (i a).val < win0_2.index t a * S128x8192.size a + S128x8192.size a := by
  show i ∈ ((View.whole main_v2).slice (win0_2.rect t)).set ↔ _
  rw [View.set_slice_whole, Rect.mem_set_unit]
  exact Iff.rfl

/-- Every position of the output array is in some point's block: row `r` is in band `r / 128`, and a band spans every
    column. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := band_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- The output array after the last point: the guarded quotient of the two operand arrays, everywhere. -/
theorem final (c : Dev nD) : (dats m 0 c).arrAt 2 cfg0.N = GQ (V m c main_v0) (V m c main_v1) :=
  (dats m 0 c).arrAt_eq_of_cover 2 (GQ (V m c main_v0) (V m c main_v1)) (fun t _ => flushed_eq m c t) covered

end Cert.KernelIdeal.Quotient

end
-- ==== Proof.KernelRun.lean ====
/-
  The idealized kernel's result. After the grid the 8192 × 8192 output array holds the guarded quotient of the two
  re-indexed arguments (the array module), and the program's last step re-indexes it back to 64 × 1048576. The guarded
  quotient acts position by position and the two re-indexings are inverse to each other, so the result is the guarded
  quotient of the arguments themselves; the arguments are never written.
-/
import proofs.«178864_j16561393894029_2_alg».proof.Proof.KernelArray

noncomputable section

namespace Cert.KernelIdeal.Quotient

open Cert.KernelIdeal Cert.KernelIdeal.Gen Idealize.ShloMosaic Idealize.ShloMosaic.TcCoe Idealize.SL.Sem
open Idealize.ShloMosaic.Pipeline (Dat)
open Cert.GuardedQuotient

variable (m : (ℓ : Loc nD τ sig) → Buf (Elt Ideal) ℓ) (ρ : Dev nD → PrngReg)

/-- What the step after the grid leaves in the result: the output array re-indexed back, which is the guarded quotient
    of the two arguments. -/
theorem result_eq (c : Dev nD) :
    Pipeline.afterTail₀ cfgs (dats m) 0 (V0 m) [hostOps1] c main_v3
      = GQ (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = GQ (V m c main_v0) (V m c main_v1) :=
    (Pipeline.withArrays_arr spec0 launch0.win.arr_inj c _ _ 2).trans (final m c)
  rw [hw, entry_X, entry_Y]
  exact GQ_reshape _ _ shapeCasts_S64x1048576_S8192x8192 shapeCasts_S8192x8192_S64x1048576

/-- Every weakly fair execution of the idealized kernel terminates with the result at the guarded quotient of the
    arguments and the arguments unchanged. -/
theorem run : θ_run defs (onTc (τ := τ) (main (F := Ideal))) ⟨m, fun _ => 0, ρ⟩ fun r => ∀ c : Dev nD,
      r.2.mem ((c : Thread nD τ).loc main_v3)
        = GQ (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Quotient

end
-- ==== Proof.ReferenceArray.lean ====
/-
  What the idealized reference computes: at every position of the 64 × 1048576 arrays, the first argument times the
  guarded reciprocal of the second — `1 / y'` where `y ≠ 0` and `0` elsewhere, `y'` being `y` off its zeros and `1` on them.
  Every operation of the reference acts position by position (the constants are splats), so the result at a position is
  that scalar expression of the two arguments at the same position, which is their guarded quotient.
-/
import proofs.«178864_j16561393894029_2_alg».proof.Proof.Gen.ReferenceIdeal.Read
import proofs.«178864_j16561393894029_2_alg».proof.Proof.GuardedQuotient

noncomputable section

namespace Cert.ReferenceIdeal.Quotient

open Cert.ReferenceIdeal Cert.ReferenceIdeal.Gen Cert.ReferenceIdeal.Read Idealize.ShloMosaic
open Cert.GuardedQuotient

/-- The reference's result, as a function of its two arguments, is their guarded quotient. -/
theorem reference_eq (x0 x1 : FVec Ideal S64x1048576 .f32) : val_main_v6 (F := Ideal) x0 x1 = GQ x0 x1 := by
  funext i
  simp only [val_main_v6_apply, val_main_v5_apply, val_main_v4_apply, val_main_v3_apply, val_main_v2_apply,
    val_main_v1_apply, val_main_v0_apply, val_main_cst_apply, val_main_cst_0_apply, val_main_cst_1_apply,
    val_main_cst_2_apply, val_main_call0_v0_apply, val_main_call0_v1_apply, val_main_call1_v0_apply,
    val_main_call1_v1_apply]
  exact mul_guarded_reciprocal (x0 i) (x1 i)

end Cert.ReferenceIdeal.Quotient

end
-- ==== Proof.lean ====
/-
  The kernel computes, over two 64 × 1048576 arrays `x` and `y` of single-precision numbers, the quotient `x / y` where
  `y ≠ 0` and `0` where `y = 0`, element by element: it re-indexes both arrays as 8192 × 8192, walks 64 bands of 128 rows,
  in each band selects between the quotient and `0` on the test `y ≠ 0`, and re-indexes the result back. The reference
  computes `x · r`, where `r` is `1 / y'` off the zeros of `y` and `0` on them, and `y'` is `y` off its zeros and `1` on them.

  Read on the extended reals, with every operation exact, both are one function of `x` and `y`, the guarded quotient:
  off the zeros of `y` the kernel gives `x · y⁻¹` and the reference `x · (1 · y⁻¹)`; on them the kernel gives `0` and the
  reference `x · 0 = 0`. Neither equation needs `x` or `y` to be finite, so the precondition is not opened. The tiling
  does not matter because an output element depends on the inputs at its own position only: each band is the restriction
  of the whole-array function, the bands cover every row, and the two re-indexings undo each other.

  The three programs' termination, absence of faults and unchanged arguments are the generated frame runs (for the
  reference, its generated run with the result dropped). The idealization rewrote no operation, so there is nothing to
  preserve beyond the program's own text.
-/
import proofs.«178864_j16561393894029_2_alg».proof.Defs
import proofs.«178864_j16561393894029_2_alg».proof.Proof.Gen.Kernel
import proofs.«178864_j16561393894029_2_alg».proof.Proof.Gen.Kernel.Skeleton
import proofs.«178864_j16561393894029_2_alg».proof.Proof.Gen.Kernel.Launch
import proofs.«178864_j16561393894029_2_alg».proof.Proof.Gen.Kernel.Points
import proofs.«178864_j16561393894029_2_alg».proof.Proof.Gen.Kernel.Frame
import proofs.«178864_j16561393894029_2_alg».proof.Proof.Gen.KernelIdeal
import proofs.«178864_j16561393894029_2_alg».proof.Proof.Gen.KernelIdeal.Skeleton
import proofs.«178864_j16561393894029_2_alg».proof.Proof.Gen.KernelIdeal.Launch
import proofs.«178864_j16561393894029_2_alg».proof.Proof.Gen.KernelIdeal.Points
import proofs.«178864_j16561393894029_2_alg».proof.Proof.Gen.KernelIdeal.Frame
import proofs.«178864_j16561393894029_2_alg».proof.Proof.Gen.ReferenceIdeal
import proofs.«178864_j16561393894029_2_alg».proof.Proof.Gen.ReferenceIdeal.Run
import proofs.«178864_j16561393894029_2_alg».proof.Proof.Gen.ReferenceIdeal.Read
import proofs.«178864_j16561393894029_2_alg».proof.Proof.Gen.Pre_finite_inputs
import proofs.«178864_j16561393894029_2_alg».proof.Proof.GuardedQuotient
import proofs.«178864_j16561393894029_2_alg».proof.Proof.KernelArray
import proofs.«178864_j16561393894029_2_alg».proof.Proof.KernelRun
import proofs.«178864_j16561393894029_2_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- And the idealized reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments, the idealized kernel and the idealized reference both end with the
    guarded quotient of the arguments as their result. -/
theorem algebraic : Cert.algebraic_KernelIdeal_ReferenceIdeal := by
  intro m ρ m' ρ' _ hagree
  refine ⟨fun c => Cert.GuardedQuotient.GQ
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Quotient.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Quotient.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
